-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S4096x128 : Shape := ⟨2, ![4096, 128]⟩
abbrev S4096 : Shape := ⟨1, ![4096]⟩
abbrev S4096x8 : Shape := ⟨2, ![4096, 8]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg6 : FVec F S65536x128 .f32) (main_arg7 : FVec F S65536x128 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S65536x128 .f32 := Host.absf main_arg6
  let main_cst_8 : FVec F S_ .f32 := constant S_ .f32 0x7F800000#32
  let main_v25 : FVec F S65536x128 .f32 := broadcastInDim S65536x128 ![] bcast_S_S65536x128 main_cst_8
  let main_v26 : IVec S65536x128 1 := cmpf .olt main_v24 main_v25
  let main_c_9 : IVec S_ 1 := constantI S_ 1 1#1
  let main_v27 : IVec S_ 1 := (fun x v => Host.reduce IntOp.andi x v reducesTo_S65536x128_S_d0_1 h_S_) main_v26 main_c_9
  let main_v28 : IVec S_ 1 := andi main_v23 main_v27
  let main_v29 : FVec F S65536x128 .f32 := Host.absf main_arg7
  let main_cst_10 : FVec F S_ .f32 := constant S_ .f32 0x7F800000#32
  let main_v30 : FVec F S65536x128 .f32 := broadcastInDim S65536x128 ![] bcast_S_S65536x128 main_cst_10
  let main_v31 : IVec S65536x128 1 := cmpf .olt main_v29 main_v30
  let main_c_11 : IVec S_ 1 := constantI S_ 1 1#1
  let main_v32 : IVec S_ 1 := (fun x v => Host.reduce IntOp.andi x v reducesTo_S65536x128_S_d0_1 h_S_) main_v31 main_c_11
  let main_v33 : IVec S_ 1 := andi main_v28 main_v32
  main_v33

def fn {F : FTy → Type} [FloatOps F] (main_arg0 : FVec F S65536x128 .f32) (main_arg1 : FVec F S65536x128 .f32) (main_arg2 : FVec F S4096x128 .f32) (main_arg3 : FVec F S4096x128 .f32) (main_arg4 : FVec F S4096 .f32) (main_arg5 : IVec S4096x8 32) (main_arg6 : FVec F S65536x128 .f32) (main_arg7 : FVec F S65536x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg6 main_arg7 main_v13 main_v16
-- ==== Kernel.lean ====
abbrev S65536x128 : Shape := ⟨2, ![65536, 128]⟩
abbrev S4096x128 : Shape := ⟨2, ![4096, 128]⟩
abbrev S4096 : Shape := ⟨1, ![4096]⟩
abbrev S4096x8 : Shape := ⟨2, ![4096, 8]⟩
abbrev S_ : Shape := ⟨0, ![]⟩
abbrev S32768 : Shape := ⟨1, ![32768]⟩
abbrev S4096x1 : Shape := ⟨2, ![4096, 1]⟩
abbrev S4096x8x128 : Shape := ⟨3, ![4096, 8, 128]⟩
abbrev S32768x128 : Shape := ⟨2, ![32768, 128]⟩
abbrev S32768x1 : Shape := ⟨2, ![32768, 1]⟩
abbrev S65536 : Shape := ⟨1, ![65536]⟩
abbrev S65536x1 : Shape := ⟨2, ![65536, 1]⟩
abbrev S2048x128 : Shape := ⟨2, ![2048, 128]⟩
abbrev S2048x1 : Shape := ⟨2, ![2048, 1]⟩

abbrev nBuf : Space → Nat
  | .hbm => 46
  | .vmem => 18
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S4096x128, .f32⟩
  | .hbm, ⟨3, _⟩ => ⟨S4096x128, .f32⟩
  | .hbm, ⟨4, _⟩ => ⟨S4096, .f32⟩
  | .hbm, ⟨5, _⟩ => ⟨S4096x8, .i32⟩
  | .hbm, ⟨6, _⟩ => ⟨S65536x128, .f32⟩
  | .hbm, ⟨7, _⟩ => ⟨S65536x128, .f32⟩
  | .hbm, ⟨8, _⟩ => ⟨S_, .f32⟩
  | .hbm, ⟨9, _⟩ => ⟨S4096, .f32⟩
  | .hbm, ⟨10, _⟩ => ⟨S4096, .i1⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S32768, .i32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S4096x8x128, .f32⟩
  | .hbm, ⟨23, _⟩ => ⟨S32768x128, .f32⟩
  | .hbm, ⟨24, _⟩ => ⟨S4096x1, .f32⟩
  | .hbm, ⟨25, _⟩ => ⟨S4096x128, .f32⟩
  | .hbm, ⟨26, _⟩ => ⟨S4096x128, .f32⟩
  | .hbm, ⟨27, _⟩ => ⟨S4096x8x128, .f32⟩
  | .hbm, ⟨28, _⟩ => ⟨S32768x128, .f32⟩
  | .hbm, ⟨29, _⟩ => ⟨S4096x8, .f32⟩
  | .hbm, ⟨30, _⟩ => ⟨S32768, .f32⟩
  | .hbm, ⟨31, _⟩ => ⟨S_, .f32⟩
  | .hbm, ⟨32, _⟩ => ⟨S65536x128, .f32⟩
  | .hbm, ⟨33, _⟩ => ⟨S32768x1, .i32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S32768x1, .i32⟩
  | .hbm, ⟨38, _⟩ => ⟨S65536x128, .f32⟩
  | .hbm, ⟨39, _⟩ => ⟨S_, .f32⟩
  | .hbm, ⟨40, _⟩ => ⟨S65536, .f32⟩
  | .hbm, ⟨41, _⟩ => ⟨S32768x1, .i32⟩
  | .hbm, ⟨42, _⟩ => ⟨S65536, .f32⟩
  | .hbm, ⟨43, _⟩ => ⟨S65536x1, .f32⟩
  | .hbm, ⟨44, _⟩ => ⟨S65536x128, .f32⟩
  | .hbm, ⟨45, _⟩ => ⟨S65536x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x1, .f32⟩
  | .local _ .vmem, ⟨13, _⟩ => ⟨S2048x1, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S4096 : S_.BroadcastsInDim S4096 (![] : Fin 0 → Fin S4096.rank)
  shapeCasts_S4096x8_S32768 : S4096x8.ShapeCasts S32768
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S4096x128_S4096x8x128_0_2 : S4096x128.BroadcastsInDim S4096x8x128 (![0, 2] : Fin 2 → Fin S4096x8x128.rank)
  shapeCasts_S4096x8x128_S32768x128 : S4096x8x128.ShapeCasts S32768x128
  bcast_S4096_S4096x8_0 : S4096.BroadcastsInDim S4096x8 (![0] : Fin 1 → Fin S4096x8.rank)
  bcast_S_S65536x128 : S_.BroadcastsInDim S65536x128 (![] : Fin 0 → Fin S65536x128.rank)
  bcast_S32768_S32768x1_0 : S32768.BroadcastsInDim S32768x1 (![0] : Fin 1 → Fin S32768x1.rank)
  bcast_S_S65536 : S_.BroadcastsInDim S65536 (![] : Fin 0 → Fin S65536.rank)
  shapeCasts_S65536_S65536x1 : S65536.ShapeCasts S65536x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  scatter_S65536x128_S32768x1_S32768x128_1_0_0_1_wf : ScatterDims.WF S65536x128 S32768x1 S32768x128 [1] [0] [0] 1
  scatter_S65536_S32768x1_S32768_n_0_0_1_wf : ScatterDims.WF S65536 S32768x1 S32768 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S65536x128.size a
  hwx0_5 : ∀ i : grid0.Coords, EltTy.bits .f32 = 32 ∨ (Rect.block (s := S65536x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S65536x1.size a
  hwx0_6 : ∀ i : grid0.Coords, EltTy.bits .f32 = 32 ∨ (Rect.block (s := S65536x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S65536x128.size a
  hwx0_8 : ∀ i : grid0.Coords, EltTy.bits .f32 = 32 ∨ (Rect.block (s := S65536x128) S2048x128.size (cc0_transform_8 i) (hinb0_8 i)).WholeWords (EltTy.packing .f32)

variable [Facts₀]

def scatter_S65536x128_S32768x1_S32768x128_1_0_0_1 : ScatterDims S65536x128 S32768x1 S32768x128 where
  updateWindowDims := [1]
  insertedWindowDims := [0]
  scatterDimsToOperandDims := [0]
  indexVectorDim := 1
  wf := scatter_S65536x128_S32768x1_S32768x128_1_0_0_1_wf
def scatter_S65536_S32768x1_S32768_n_0_0_1 : ScatterDims S65536 S32768x1 S32768 where
  updateWindowDims := []
  insertedWindowDims := [0]
  scatterDimsToOperandDims := [0]
  indexVectorDim := 1
  wf := scatter_S65536_S32768x1_S32768_n_0_0_1_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2048x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x128 : Shape := ⟨2, ![65536, 128]⟩
abbrev S4096x128 : Shape := ⟨2, ![4096, 128]⟩
abbrev S4096 : Shape := ⟨1, ![4096]⟩
abbrev S4096x8 : Shape := ⟨2, ![4096, 8]⟩
abbrev S_ : Shape := ⟨0, ![]⟩
abbrev S32768 : Shape := ⟨1, ![32768]⟩
abbrev S4096x1 : Shape := ⟨2, ![4096, 1]⟩
abbrev S4096x8x128 : Shape := ⟨3, ![4096, 8, 128]⟩
abbrev S32768x128 : Shape := ⟨2, ![32768, 128]⟩
abbrev S32768x1 : Shape := ⟨2, ![32768, 1]⟩
abbrev S65536 : Shape := ⟨1, ![65536]⟩
abbrev S65536x1 : Shape := ⟨2, ![65536, 1]⟩

abbrev nBuf : Space → Nat
  | .hbm => 71
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S4096x128, .f32⟩
  | .hbm, ⟨3, _⟩ => ⟨S4096x128, .f32⟩
  | .hbm, ⟨4, _⟩ => ⟨S4096, .f32⟩
  | .hbm, ⟨5, _⟩ => ⟨S4096x8, .i32⟩
  | .hbm, ⟨6, _⟩ => ⟨S65536x128, .f32⟩
  | .hbm, ⟨7, _⟩ => ⟨S65536x128, .f32⟩
  | .hbm, ⟨8, _⟩ => ⟨S_, .f32⟩
  | .hbm, ⟨9, _⟩ => ⟨S4096, .f32⟩
  | .hbm, ⟨10, _⟩ => ⟨S4096, .i1⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S32768, .i32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S4096x8x128, .f32⟩
  | .hbm, ⟨23, _⟩ => ⟨S32768x128, .f32⟩
  | .hbm, ⟨24, _⟩ => ⟨S4096x1, .f32⟩
  | .hbm, ⟨25, _⟩ => ⟨S4096x128, .f32⟩
  | .hbm, ⟨26, _⟩ => ⟨S4096x128, .f32⟩
  | .hbm, ⟨27, _⟩ => ⟨S4096x8x128, .f32⟩
  | .hbm, ⟨28, _⟩ => ⟨S32768x128, .f32⟩
  | .hbm, ⟨29, _⟩ => ⟨S4096x8, .f32⟩
  | .hbm, ⟨30, _⟩ => ⟨S32768, .f32⟩
  | .hbm, ⟨31, _⟩ => ⟨S_, .f32⟩
  | .hbm, ⟨32, _⟩ => ⟨S65536x128, .f32⟩
  | .hbm, ⟨33, _⟩ => ⟨S32768x1, .i32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S32768x1, .i32⟩
  | .hbm, ⟨38, _⟩ => ⟨S65536x128, .f32⟩
  | .hbm, ⟨39, _⟩ => ⟨S_, .f32⟩
  | .hbm, ⟨40, _⟩ => ⟨S65536, .f32⟩
  | .hbm, ⟨41, _⟩ => ⟨S32768x1, .i32⟩
  | .hbm, ⟨42, _⟩ => ⟨S65536, .f32⟩
  | .hbm, ⟨43, _⟩ => ⟨S_, .f32⟩
  | .hbm, ⟨44, _⟩ => ⟨S65536, .f32⟩
  | .hbm, ⟨45, _⟩ => ⟨S65536, .i1⟩
  | .hbm, ⟨46, _⟩ => ⟨S_, .f32⟩
  | .hbm, ⟨47, _⟩ => ⟨S_, .f32⟩
  | .hbm, ⟨48, _⟩ => ⟨S65536, .f32⟩
  | .hbm, ⟨49, _⟩ => ⟨S65536, .f32⟩
  | .hbm, ⟨50, _⟩ => ⟨S65536x1, .f32⟩
  | .hbm, ⟨51, _⟩ => ⟨S65536x128, .f32⟩
  | .hbm, ⟨52, _⟩ => ⟨S65536x128, .f32⟩
  | .hbm, ⟨53, _⟩ => ⟨S65536x128, .f32⟩
  | .hbm, ⟨54, _⟩ => ⟨S65536x128, .f32⟩
  | .hbm, ⟨55, _⟩ => ⟨S_, .f32⟩
  | .hbm, ⟨56, _⟩ => ⟨S65536x128, .f32⟩
  | .hbm, ⟨57, _⟩ => ⟨S65536x128, .f32⟩
  | .hbm, ⟨58, _⟩ => ⟨S_, .f32⟩
  | .hbm, ⟨59, _⟩ => ⟨S65536x128, .f32⟩
  | .hbm, ⟨60, _⟩ => ⟨S65536x128, .f32⟩
  | .hbm, ⟨61, _⟩ => ⟨S65536x128, .f32⟩
  | .hbm, ⟨62, _⟩ => ⟨S_, .f32⟩
  | .hbm, ⟨63, _⟩ => ⟨S65536x128, .f32⟩
  | .hbm, ⟨64, _⟩ => ⟨S65536x128, .f32⟩
  | .hbm, ⟨65, _⟩ => ⟨S_, .f32⟩
  | .hbm, ⟨66, _⟩ => ⟨S65536x128, .f32⟩
  | .hbm, ⟨67, _⟩ => ⟨S65536x128, .f32⟩
  | .hbm, ⟨68, _⟩ => ⟨S65536x128, .f32⟩
  | .hbm, ⟨69, _⟩ => ⟨S65536x128, .f32⟩
  | .hbm, ⟨70, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  shapeCasts_S4096x8_S32768 : S4096x8.ShapeCasts S32768
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S4096x128_S4096x8x128_0_2 : S4096x128.BroadcastsInDim S4096x8x128 (![0, 2] : Fin 2 → Fin S4096x8x128.rank)
  shapeCasts_S4096x8x128_S32768x128 : S4096x8x128.ShapeCasts S32768x128
  bcast_S4096_S4096x8_0 : S4096.BroadcastsInDim S4096x8 (![0] : Fin 1 → Fin S4096x8.rank)
  bcast_S_S65536x128 : S_.BroadcastsInDim S65536x128 (![] : Fin 0 → Fin S65536x128.rank)
  bcast_S32768_S32768x1_0 : S32768.BroadcastsInDim S32768x1 (![0] : Fin 1 → Fin S32768x1.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  scatter_S65536x128_S32768x1_S32768x128_1_0_0_1_wf : ScatterDims.WF S65536x128 S32768x1 S32768x128 [1] [0] [0] 1
  scatter_S65536_S32768x1_S32768_n_0_0_1_wf : ScatterDims.WF S65536 S32768x1 S32768 [] [0] [0] 1

variable [Facts₀]

def scatter_S65536x128_S32768x1_S32768x128_1_0_0_1 : ScatterDims S65536x128 S32768x1 S32768x128 where
  updateWindowDims := [1]
  insertedWindowDims := [0]
  scatterDimsToOperandDims := [0]
  indexVectorDim := 1
  wf := scatter_S65536x128_S32768x1_S32768x128_1_0_0_1_wf
def scatter_S65536_S32768x1_S32768_n_0_0_1 : ScatterDims S65536 S32768x1 S32768 where
  updateWindowDims := []
  insertedWindowDims := [0]
  scatterDimsToOperandDims := [0]
  indexVectorDim := 1
  wf := scatter_S65536_S32768x1_S32768_n_0_0_1_wf

class Facts : Prop extends Facts₀ where

variable [Facts]
-- ==== Proof.SlotBlend.lean ====
/-
  One slot update with momentum, as a function of whole arrays.

  A memory of 65536 slots, each a row of 128 numbers. For the entry in column `q` of slot `p`:

      out (p, q) = mem (p, q) + ( a · mom (p, q) + b · ( upd (p, q) / d p ) ),
      d p        = cnt p   if cnt p > 0,   else 1,

  where `a` and `b` are the two single-precision words 0x3F666666 and 0x3DCCCCCD (the binary values nearest 9/10 and
  1/10), `upd` is the weighted sum of the rows written to the slot and `cnt` the sum of their weights. The divisor
  depends on the slot only, so one number per row is read for all 128 columns.

  The function is written once over the float operations of any instance; `blend_real` spells it out on the extended
  reals, where every operation is the exact one.
-/
import Idealize.ShloMosaic.PureOps.Ideal
import Idealize.ShloMosaic.Lib.ValueIdx

noncomputable section

namespace Cert.SlotBlend

open Idealize.ShloMosaic

/-- The memory: 65536 slots of 128 numbers. -/
abbrev Slots : Shape := ⟨2, ![65536, 128]⟩
/-- One number per slot. -/
abbrev SlotVec : Shape := ⟨1, ![65536]⟩

/-- The slot an entry of the memory belongs to: its row. -/
abbrev slotOf (i : Slots.Idx) : SlotVec.Idx := fun a => match a with
  | ⟨0, _⟩ => ⟨(i 0).val, (i 0).isLt⟩

variable {F : FTy → Type} [FloatOps F]

/-- The divisor of a slot: its weight sum where that is positive, one elsewhere. -/
def divisor (cnt : Vec F SlotVec .f32) (r : SlotVec.Idx) : Elt F .f32 :=
  Scalar.select (FloatOps.cmpf .ogt (cnt r) (Scalar.ofBits .f32 0x00000000#32)) (cnt r) (Scalar.ofBits .f32 0x3F800000#32)

/-- The updated memory, entry by entry: the old entry plus the new momentum, which mixes the old momentum and the
    slot's averaged update. -/
def blend (mem mom upd : Vec F Slots .f32) (cnt : Vec F SlotVec .f32) : Vec F Slots .f32 := fun i =>
  FloatOps.addf (mem i)
    (FloatOps.addf (FloatOps.mulf (Scalar.ofBits .f32 0x3F666666#32) (mom i))
      (FloatOps.mulf (Scalar.ofBits .f32 0x3DCCCCCD#32) (FloatOps.divf (upd i) (divisor cnt (slotOf i)))))

/-- On the extended reals the same entry is `mem + (a · mom + b · (upd / d))`, the division the extended one. -/
theorem blend_real (mem mom upd : Vec Ideal Slots .f32) (cnt : Vec Ideal SlotVec .f32) (i : Slots.Idx) :
    blend mem mom upd cnt i
      = mem i + (Ideal.ofBits .f32 0x3F666666#32 * mom i
          + Ideal.ofBits .f32 0x3DCCCCCD#32 * Ideal.div (upd i) (divisor cnt (slotOf i))) := rfl

end Cert.SlotBlend

end
-- ==== Proof.KernelBlocks.lean ====
/-
  From the kernel's blocks to its two result arrays.

  The grid has 32 points; point `t` works on rows 2048·t … 2048·t + 2047 of every array: each 65536 × 128 array is cut
  into 32 blocks of 2048 rows, and the column of weight sums into 32 blocks of 2048 entries, all moving together. The
  body's result for a block is, entry by entry, a function of the entries of the input blocks in the same row and
  column (and of the weight column in the same row). So what point `t` writes back is block `t` of ONE function of the
  whole arrays — the slot update of `SlotBlend` — and since the 32 blocks cover all 65536 rows, each result array ends
  holding that function.
-/
import proofs.«118902_j61194694033988_1_alg».proof.Proof.Gen.KernelIdeal.Value
import proofs.«118902_j61194694033988_1_alg».proof.Proof.SlotBlend
import Idealize.ShloMosaic.Lib.Pipeline.Value

noncomputable section

namespace Cert.KernelIdeal.Blocks

open Cert.KernelIdeal Cert.KernelIdeal.Gen Cert.KernelIdeal.Value Cert.SlotBlend
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The weight sums as the region finds them, a column, read as one number per slot. -/
abbrev colVec (col : Vec F S65536x1 .f32) : Vec F SlotVec .f32 := fun r => col (fun a => match a with
  | ⟨0, _⟩ => ⟨(r 0).val, (r 0).isLt⟩
  | ⟨1, _⟩ => ⟨0, Nat.one_pos⟩)

/-- Every window's block index at point `t` is (t, 0): the blocks move down the rows together. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## One block's result, entry by entry -/

/-- The body's result for the first output, over any blocks: its one store covers the block, and its payload is the
    entrywise function `E7` of the blocks it loads. -/
theorem out7_apply (x0 x1 x2 x3 x4 x5 : Vec F S2048x128 .f32) (x6 : Vec F S2048x1 .f32) (y : S2048x128.Idx) :
    out0_7 x0 x1 x2 x3 x4 x5 x6 y = E7 x0 x2 x4 x6 y := by
  unfold out0_7
  rw [canon7_eq]
  simp only [View.ld_unit_zero (S := S2048x128) hz, View.ld_unit_zero (S := S2048x1) hz]

theorem out8_apply (x0 x1 x2 x3 x4 x5 : Vec F S2048x128 .f32) (x6 : Vec F S2048x1 .f32) (y : S2048x128.Idx) :
    out0_8 x0 x1 x2 x3 x4 x5 x6 y = E8 x1 x3 x5 x6 y := by
  unfold out0_8
  rw [canon8_eq]
  simp only [View.ld_unit_zero (S := S2048x128) hz, View.ld_unit_zero (S := S2048x1) hz]

/-- If the blocks' entries at `y` are the arrays' entries at `i` (and the weight block's at row `y 0` the column's at the
    slot of `i`; the body reads that entry twice, at one and the same place), the block's result at `y` is the slot update at `i`. -/
theorem E7_of_reads (A0 A2 A4 : Vec F Slots .f32) (A6 : Vec F S65536x1 .f32)
    (x0 x2 x4 : Vec F S2048x128 .f32) (x6 : Vec F S2048x1 .f32) (y : S2048x128.Idx) (i : Slots.Idx)
    (h0 : x0 (ix7_0 y) = A0 i) (h2 : x2 (ix7_1 y) = A2 i) (h4 : x4 (ix7_2 y) = A4 i)
    (h6 : x6 (ix7_3 y) = colVec A6 (slotOf i)) :
    E7 x0 x2 x4 x6 y = blend A0 A2 A4 (colVec A6) i := by
  show FloatOps.addf (x0 (ix7_0 y)) (FloatOps.addf (FloatOps.mulf _ (x2 (ix7_1 y))) (FloatOps.mulf _ (FloatOps.divf (x4 (ix7_2 y))
    (Scalar.select (FloatOps.cmpf .ogt (x6 (ix7_3 y)) _) (x6 (ix7_4 y)) _)))) = _
  rw [h0, h2, h4, h6]
  rfl

theorem E8_of_reads (A0 A2 A4 : Vec F Slots .f32) (A6 : Vec F S65536x1 .f32)
    (x0 x2 x4 : Vec F S2048x128 .f32) (x6 : Vec F S2048x1 .f32) (y : S2048x128.Idx) (i : Slots.Idx)
    (h0 : x0 (ix8_0 y) = A0 i) (h2 : x2 (ix8_1 y) = A2 i) (h4 : x4 (ix8_2 y) = A4 i)
    (h6 : x6 (ix8_3 y) = colVec A6 (slotOf i)) :
    E8 x0 x2 x4 x6 y = blend A0 A2 A4 (colVec A6) i := by
  show FloatOps.addf (x0 (ix8_0 y)) (FloatOps.addf (FloatOps.mulf _ (x2 (ix8_1 y))) (FloatOps.mulf _ (FloatOps.divf (x4 (ix8_2 y))
    (Scalar.select (FloatOps.cmpf .ogt (x6 (ix8_3 y)) _) (x6 (ix8_4 y)) _)))) = _
  rw [h0, h2, h4, h6]
  rfl

/-! ## A block's entries are the array's

Window `w`'s block at point `t` starts at row 2048 · (the window's block index at `t`), and every window's block index
at `t` is `t` itself (`idx_facts`): an input block's entry `y` is the array's entry that lies under the OUTPUT block's
entry `y`. -/

/-- The memory keys' block. -/
theorem read_keys (c : Dev nD) (t : Fin cfg0.N) (y : S2048x128.Idx) :
    (iblk m c 0 t : Vec F S2048x128 .f32) (ix7_0 y)
      = (V m c main_arg0 : S65536x128.Idx → Elt F .f32) (((cfg0.win 7).blk t).view.emb y) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_arg0 (((cfg0.win 0).blk t).view.emb (ix7_0 y)) = V m c main_arg0 (((cfg0.win 7).blk t).view.emb y)
  refine congrArg _ (funext fun a => Fin.ext ?_)
  match a with
  | ⟨0, _⟩ => show win0_0.index t (0 : Fin 2) * 2048 + 1 * (y 0).val = win0_7.index t (0 : Fin 2) * 2048 + 1 * (y 0).val; omega
  | ⟨1, _⟩ => show win0_0.index t (1 : Fin 2) * 128 + 1 * (y 1).val = win0_7.index t (1 : Fin 2) * 128 + 1 * (y 1).val; omega

/-- The key momentum's block. -/
theorem read_keyMom (c : Dev nD) (t : Fin cfg0.N) (y : S2048x128.Idx) :
    (iblk m c 2 t : Vec F S2048x128 .f32) (ix7_0 y)
      = (V m c main_arg6 : S65536x128.Idx → Elt F .f32) (((cfg0.win 7).blk t).view.emb y) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_arg6 (((cfg0.win 2).blk t).view.emb (ix7_0 y)) = V m c main_arg6 (((cfg0.win 7).blk t).view.emb y)
  refine congrArg _ (funext fun a => Fin.ext ?_)
  match a with
  | ⟨0, _⟩ => show win0_2.index t (0 : Fin 2) * 2048 + 1 * (y 0).val = win0_7.index t (0 : Fin 2) * 2048 + 1 * (y 0).val; omega
  | ⟨1, _⟩ => show win0_2.index t (1 : Fin 2) * 128 + 1 * (y 1).val = win0_7.index t (1 : Fin 2) * 128 + 1 * (y 1).val; omega

/-- The key updates' block. -/
theorem read_keyUpd (c : Dev nD) (t : Fin cfg0.N) (y : S2048x128.Idx) :
    (iblk m c 4 t : Vec F S2048x128 .f32) (ix7_0 y)
      = (V m c main_v20 : S65536x128.Idx → Elt F .f32) (((cfg0.win 7).blk t).view.emb y) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_v20 (((cfg0.win 4).blk t).view.emb (ix7_0 y)) = V m c main_v20 (((cfg0.win 7).blk t).view.emb y)
  refine congrArg _ (funext fun a => Fin.ext ?_)
  match a with
  | ⟨0, _⟩ => show win0_4.index t (0 : Fin 2) * 2048 + 1 * (y 0).val = win0_7.index t (0 : Fin 2) * 2048 + 1 * (y 0).val; omega
  | ⟨1, _⟩ => show win0_4.index t (1 : Fin 2) * 128 + 1 * (y 1).val = win0_7.index t (1 : Fin 2) * 128 + 1 * (y 1).val; omega

/-- The weight block at point `t`, row `y 0`, is the column's entry in the row of the output block's entry `y`. -/
theorem read_weight7 (c : Dev nD) (t : Fin cfg0.N) (y : S2048x128.Idx) :
    (iblk m c 6 t : Vec F S2048x1 .f32) (ix7_3 y)
      = colVec (V m c main_v27 : S65536x1.Idx → Elt F .f32) (slotOf (((cfg0.win 7).blk t).view.emb y)) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_v27 (((cfg0.win 6).blk t).view.emb (ix7_3 y)) = V m c main_v27 _
  refine congrArg _ (funext fun a => Fin.ext ?_)
  match a with
  | ⟨0, _⟩ => show win0_6.index t (0 : Fin 2) * 2048 + 1 * (y 0).val = win0_7.index t (0 : Fin 2) * 2048 + 1 * (y 0).val; omega
  | ⟨1, _⟩ => show win0_6.index t (1 : Fin 2) * 1 + 1 * 0 = 0; omega

/-- The memory values' block. -/
theorem read_vals (c : Dev nD) (t : Fin cfg0.N) (y : S2048x128.Idx) :
    (iblk m c 1 t : Vec F S2048x128 .f32) (ix7_0 y)
      = (V m c main_arg1 : S65536x128.Idx → Elt F .f32) (((cfg0.win 8).blk t).view.emb y) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_arg1 (((cfg0.win 1).blk t).view.emb (ix7_0 y)) = V m c main_arg1 (((cfg0.win 8).blk t).view.emb y)
  refine congrArg _ (funext fun a => Fin.ext ?_)
  match a with
  | ⟨0, _⟩ => show win0_1.index t (0 : Fin 2) * 2048 + 1 * (y 0).val = win0_8.index t (0 : Fin 2) * 2048 + 1 * (y 0).val; omega
  | ⟨1, _⟩ => show win0_1.index t (1 : Fin 2) * 128 + 1 * (y 1).val = win0_8.index t (1 : Fin 2) * 128 + 1 * (y 1).val; omega

/-- The value momentum's block. -/
theorem read_valMom (c : Dev nD) (t : Fin cfg0.N) (y : S2048x128.Idx) :
    (iblk m c 3 t : Vec F S2048x128 .f32) (ix7_0 y)
      = (V m c main_arg7 : S65536x128.Idx → Elt F .f32) (((cfg0.win 8).blk t).view.emb y) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_arg7 (((cfg0.win 3).blk t).view.emb (ix7_0 y)) = V m c main_arg7 (((cfg0.win 8).blk t).view.emb y)
  refine congrArg _ (funext fun a => Fin.ext ?_)
  match a with
  | ⟨0, _⟩ => show win0_3.index t (0 : Fin 2) * 2048 + 1 * (y 0).val = win0_8.index t (0 : Fin 2) * 2048 + 1 * (y 0).val; omega
  | ⟨1, _⟩ => show win0_3.index t (1 : Fin 2) * 128 + 1 * (y 1).val = win0_8.index t (1 : Fin 2) * 128 + 1 * (y 1).val; omega

/-- The value updates' block. -/
theorem read_valUpd (c : Dev nD) (t : Fin cfg0.N) (y : S2048x128.Idx) :
    (iblk m c 5 t : Vec F S2048x128 .f32) (ix7_0 y)
      = (V m c main_v23 : S65536x128.Idx → Elt F .f32) (((cfg0.win 8).blk t).view.emb y) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_v23 (((cfg0.win 5).blk t).view.emb (ix7_0 y)) = V m c main_v23 (((cfg0.win 8).blk t).view.emb y)
  refine congrArg _ (funext fun a => Fin.ext ?_)
  match a with
  | ⟨0, _⟩ => show win0_5.index t (0 : Fin 2) * 2048 + 1 * (y 0).val = win0_8.index t (0 : Fin 2) * 2048 + 1 * (y 0).val; omega
  | ⟨1, _⟩ => show win0_5.index t (1 : Fin 2) * 128 + 1 * (y 1).val = win0_8.index t (1 : Fin 2) * 128 + 1 * (y 1).val; omega

/-- The weight block at point `t`, row `y 0`, is the column's entry in the row of the output block's entry `y`. -/
theorem read_weight8 (c : Dev nD) (t : Fin cfg0.N) (y : S2048x128.Idx) :
    (iblk m c 6 t : Vec F S2048x1 .f32) (ix7_3 y)
      = colVec (V m c main_v27 : S65536x1.Idx → Elt F .f32) (slotOf (((cfg0.win 8).blk t).view.emb y)) := by
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  show V m c main_v27 (((cfg0.win 6).blk t).view.emb (ix7_3 y)) = V m c main_v27 _
  refine congrArg _ (funext fun a => Fin.ext ?_)
  match a with
  | ⟨0, _⟩ => show win0_6.index t (0 : Fin 2) * 2048 + 1 * (y 0).val = win0_8.index t (0 : Fin 2) * 2048 + 1 * (y 0).val; omega
  | ⟨1, _⟩ => show win0_6.index t (1 : Fin 2) * 1 + 1 * 0 = 0; omega

/-! ## The updated keys -/

/-- What the updated keys array ends holding, as one function of the arrays the region finds. -/
abbrev keysOut (c : Dev nD) : Buf (Elt F) ((c : Thread nD τ).loc main_v28_0) :=
  blend (V m c main_arg0) (V m c main_arg6) (V m c main_v20) (colVec (V m c main_v27))

/-- Point `t` writes back block `t` of that function. -/
theorem flushed7_eq (c : Dev nD) (t : Fin cfg0.N) :
    (dats m 0 c).flushed 7 t = ((cfg0.win 7).blk t).view.read (Elt F) (keysOut m c) := by
  rw [flushed7]
  funext y
  show out0_7 (iblk m c 0 t) (iblk m c 1 t) (iblk m c 2 t) (iblk m c 3 t) (iblk m c 4 t) (iblk m c 5 t) (iblk m c 6 t) y
    = blend (V m c main_arg0) (V m c main_arg6) (V m c main_v20) (colVec (V m c main_v27)) (((cfg0.win 7).blk t).view.emb y)
  refine (out7_apply _ _ _ _ _ _ _ y).trans ?_
  exact E7_of_reads _ _ _ _ _ _ _ _ y _ (read_keys m c t y) (read_keyMom m c t y) (read_keyUpd m c t y) (read_weight7 m c t y)

/-- An index lies in point `t`'s block exactly when each coordinate lies in the block's range on its axis. -/
theorem mem_blk7 (t : Fin cfg0.N) (i : S65536x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v28_0).slice (win0_7.rect t)).set ↔ _
  rw [View.set_slice_whole, Rect.mem_set_unit]
  exact Iff.rfl

/-- Every entry is written back: the entry in row `p` by the point `p / 2048`. -/
theorem cover7 (i : S65536x128.Idx) :
    ∃ t : Fin cfg0.N, (cfg0.win 7).flush t = true ∧ i ∈ ((cfg0.win 7).blk t).view.set := by
  have h0 : (i 0).val < 65536 := (i 0).isLt
  have h1 : (i 1).val < 128 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  refine ⟨t, flush0_7 t, ?_⟩
  rw [mem_blk7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- So the array ends holding the function. -/
theorem final7 (c : Dev nD) : (dats m 0 c).arrAt 7 cfg0.N = keysOut m c :=
  (dats m 0 c).arrAt_eq_of_cover 7 (keysOut m c) (fun t _ => flushed7_eq m c t) cover7

/-! ## The updated values -/

/-- What the updated values array ends holding, as one function of the arrays the region finds. -/
abbrev valsOut (c : Dev nD) : Buf (Elt F) ((c : Thread nD τ).loc main_v28_1) :=
  blend (V m c main_arg1) (V m c main_arg7) (V m c main_v23) (colVec (V m c main_v27))

/-- Point `t` writes back block `t` of that function. -/
theorem flushed8_eq (c : Dev nD) (t : Fin cfg0.N) :
    (dats m 0 c).flushed 8 t = ((cfg0.win 8).blk t).view.read (Elt F) (valsOut m c) := by
  rw [flushed8]
  funext y
  show out0_8 (iblk m c 0 t) (iblk m c 1 t) (iblk m c 2 t) (iblk m c 3 t) (iblk m c 4 t) (iblk m c 5 t) (iblk m c 6 t) y
    = blend (V m c main_arg1) (V m c main_arg7) (V m c main_v23) (colVec (V m c main_v27)) (((cfg0.win 8).blk t).view.emb y)
  refine (out8_apply _ _ _ _ _ _ _ y).trans ?_
  exact E8_of_reads _ _ _ _ _ _ _ _ y _ (read_vals m c t y) (read_valMom m c t y) (read_valUpd m c t y) (read_weight8 m c t y)

/-- An index lies in point `t`'s block exactly when each coordinate lies in the block's range on its axis. -/
theorem mem_blk8 (t : Fin cfg0.N) (i : S65536x128.Idx) :
    i ∈ ((cfg0.win 8).blk t).view.set ↔ ∀ a : Fin 2, win0_8.index t a * S2048x128.size a ≤ (i a).val
      ∧ (i a).val < win0_8.index t a * S2048x128.size a + S2048x128.size a := by
  show i ∈ ((View.whole main_v28_1).slice (win0_8.rect t)).set ↔ _
  rw [View.set_slice_whole, Rect.mem_set_unit]
  exact Iff.rfl

/-- Every entry is written back: the entry in row `p` by the point `p / 2048`. -/
theorem cover8 (i : S65536x128.Idx) :
    ∃ t : Fin cfg0.N, (cfg0.win 8).flush t = true ∧ i ∈ ((cfg0.win 8).blk t).view.set := by
  have h0 : (i 0).val < 65536 := (i 0).isLt
  have h1 : (i 1).val < 128 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨⟨a0, a1⟩, ⟨b0, b1⟩, ⟨c0, c1⟩, ⟨d0, d1⟩, ⟨e0, e1⟩, ⟨f0, f1⟩, ⟨g0, g1⟩, ⟨p0, p1⟩, ⟨q0, q1⟩⟩ := idx_facts t
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 128 ≤ (i 1).val ∧ (i 1).val < win0_8.index t (1 : Fin 2) * 128 + 128; omega

/-- So the array ends holding the function. -/
theorem final8 (c : Dev nD) : (dats m 0 c).arrAt 8 cfg0.N = valsOut m c :=
  (dats m 0 c).arrAt_eq_of_cover 8 (valsOut m c) (fun t _ => flushed8_eq m c t) cover8

/-! ## The run -/

/-- Every weakly fair execution of the kernel's program terminates with the two result arrays at the slot update of
    the arrays the region finds, and the arguments as launched. -/
theorem run : θ_run defs (onTc (τ := τ) (main (F := F))) ⟨m, fun _ => 0, ρ⟩ fun r => ∀ c : Dev nD,
      r.2.mem ((c : Thread nD τ).loc main_v28_0) = keysOut m c
      ∧ r.2.mem ((c : Thread nD τ).loc main_v28_1) = valsOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final7 m c), (h c).2.1.trans (final8 m c), (h c).2.2⟩)
    (run_blocks m ρ)

end Cert.KernelIdeal.Blocks

end
-- ==== Proof.HostPrefix.lean ====
/-
  What the region finds in the three arrays the host computes before it.

  Before the kernel is launched the host forms, from the write weights, the written rows and the slot indices, the
  weighted sum of the rows written to each slot (once for the keys, once for the values) and the sum of the weights
  per slot, the last recast as a column. These are the same operations, in the same order and on the same words, that
  the reference starts with, so each array the region finds is the reference's own stage applied to the launch
  contents: the scatter-additions are never opened.
-/
import proofs.«118902_j61194694033988_1_alg».proof.Proof.Gen.KernelIdeal.Frame
import proofs.«118902_j61194694033988_1_alg».proof.Proof.Gen.ReferenceIdeal.Read
import Idealize.ShloMosaic.Lib.StableHlo.Run
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 8192 in
set_option maxHeartbeats 4000000 in
/-- The key updates: the weighted rows of the write queries added into their slots. -/
theorem keyUpdates (c : Dev nD) :
    (V m c main_v20 : S65536x128.Idx → Elt F .f32)
      = Cert.ReferenceIdeal.Read.val_main_v20 (F := F) (m ((c : Thread nD τ).loc main_arg2))
          (m ((c : Thread nD τ).loc main_arg4)) (m ((c : Thread nD τ).loc main_arg5)) := by
  dsimp only [V]
  simp only [hostOps0, hostOps0_1, hostOps0_2, List.flatten_cons, List.flatten_nil, List.append_nil, List.cons_append,
    List.nil_append]
  after_results_simp
  rfl

set_option maxRecDepth 8192 in
set_option maxHeartbeats 4000000 in
/-- The value updates: the weighted rows of the write values added into their slots. -/
theorem valUpdates (c : Dev nD) :
    (V m c main_v23 : S65536x128.Idx → Elt F .f32)
      = Cert.ReferenceIdeal.Read.val_main_v23 (F := F) (m ((c : Thread nD τ).loc main_arg3))
          (m ((c : Thread nD τ).loc main_arg4)) (m ((c : Thread nD τ).loc main_arg5)) := by
  dsimp only [V]
  simp only [hostOps0, hostOps0_1, hostOps0_2, List.flatten_cons, List.flatten_nil, List.append_nil, List.cons_append,
    List.nil_append]
  after_results_simp
  rfl

set_option maxRecDepth 8192 in
set_option maxHeartbeats 4000000 in
/-- The weight sums, one per slot, recast as a column. -/
theorem weightCol (c : Dev nD) :
    (V m c main_v27 : S65536x1.Idx → Elt F .f32)
      = shapeCast S65536x1 (Cert.ReferenceIdeal.Read.val_main_v26 (F := F) (m ((c : Thread nD τ).loc main_arg4))
          (m ((c : Thread nD τ).loc main_arg5))) shapeCasts_S65536_S65536x1 := by
  dsimp only [V]
  simp only [hostOps0, hostOps0_1, hostOps0_2, List.flatten_cons, List.flatten_nil, List.append_nil, List.cons_append,
    List.nil_append]
  after_results_simp
  rfl

/-- Row `p` of that column is slot `p`'s weight sum: a vector and the column made of it have the same entries in the
    same order. -/
theorem weightCol_apply (c : Dev nD) (j : S65536x1.Idx) (r : Cert.ReferenceIdeal.S65536.Idx) (h : (r 0).val = (j 0).val) :
    (V m c main_v27 : S65536x1.Idx → Elt F .f32) j
      = Cert.ReferenceIdeal.Read.val_main_v26 (F := F) (m ((c : Thread nD τ).loc main_arg4))
          (m ((c : Thread nD τ).loc main_arg5)) r := by
  rw [weightCol]
  refine shapeCast_apply _ _ j r ?_
  rw [Shape.rowMajor_val_one, Shape.rowMajor_val_two]
  have hj : (j 1).val < 1 := (j 1).isLt
  show (r 0).val = (j 0).val * 1 + (j 1).val
  omega

end Cert.KernelIdeal.HostPrefix

end
-- ==== Proof.KernelValue.lean ====
/-
  The kernel's two results as functions of the launch contents.

  `Blocks` gives each result array as the slot update of the arrays the region finds; `HostPrefix` says what those
  are: the four argument arrays as launched, the two scatter-added update arrays, and the column of weight sums, whose
  row `p` is slot `p`'s weight sum. Put together, the kernel's program ends with

      keys'   = blend  keys    key momentum    (key updates)    (weight sums)
      values' = blend  values  value momentum  (value updates)  (weight sums)

  over the launch contents, the update arrays and the weight sums being the reference's own stages.
-/
import proofs.«118902_j61194694033988_1_alg».proof.Proof.KernelBlocks
import proofs.«118902_j61194694033988_1_alg».proof.Proof.HostPrefix

noncomputable section

namespace Cert.KernelIdeal.KernelValue

open Cert.KernelIdeal Cert.KernelIdeal.Gen Cert.KernelIdeal.Blocks Cert.KernelIdeal.HostPrefix Cert.SlotBlend
open Idealize.ShloMosaic Idealize.ShloMosaic.TcCoe Idealize.SL.Sem

variable {F : FTy → Type} [FloatOps F]
variable (m : (ℓ : Loc nD τ sig) → Buf (Elt F) ℓ) (ρ : Dev nD → PrngReg)

/-- The weight column read as one number per slot is the vector of weight sums. -/
theorem weights_eq (c : Dev nD) :
    colVec (V m c main_v27 : S65536x1.Idx → Elt F .f32)
      = Cert.ReferenceIdeal.Read.val_main_v26 (F := F) (m ((c : Thread nD τ).loc main_arg4))
          (m ((c : Thread nD τ).loc main_arg5)) :=
  funext fun r => weightCol_apply m c _ r rfl

/-- The updated keys over the launch contents. -/
abbrev keys (c : Dev nD) : Buf (Elt F) ((c : Thread nD τ).loc main_v28_0) :=
  blend (m ((c : Thread nD τ).loc main_arg0)) (m ((c : Thread nD τ).loc main_arg6))
    (Cert.ReferenceIdeal.Read.val_main_v20 (F := F) (m ((c : Thread nD τ).loc main_arg2))
      (m ((c : Thread nD τ).loc main_arg4)) (m ((c : Thread nD τ).loc main_arg5)))
    (Cert.ReferenceIdeal.Read.val_main_v26 (F := F) (m ((c : Thread nD τ).loc main_arg4))
      (m ((c : Thread nD τ).loc main_arg5)))

/-- The updated values over the launch contents. -/
abbrev vals (c : Dev nD) : Buf (Elt F) ((c : Thread nD τ).loc main_v28_1) :=
  blend (m ((c : Thread nD τ).loc main_arg1)) (m ((c : Thread nD τ).loc main_arg7))
    (Cert.ReferenceIdeal.Read.val_main_v23 (F := F) (m ((c : Thread nD τ).loc main_arg3))
      (m ((c : Thread nD τ).loc main_arg4)) (m ((c : Thread nD τ).loc main_arg5)))
    (Cert.ReferenceIdeal.Read.val_main_v26 (F := F) (m ((c : Thread nD τ).loc main_arg4))
      (m ((c : Thread nD τ).loc main_arg5)))

theorem keysOut_eq (c : Dev nD) : keysOut m c = keys m c := by
  show blend (V m c main_arg0) (V m c main_arg6) (V m c main_v20) (colVec (V m c main_v27)) = _
  rw [V_main_arg0 m c, V_main_arg6 m c, keyUpdates m c, weights_eq m c]

theorem valsOut_eq (c : Dev nD) : valsOut m c = vals m c := by
  show blend (V m c main_arg1) (V m c main_arg7) (V m c main_v23) (colVec (V m c main_v27)) = _
  rw [V_main_arg1 m c, V_main_arg7 m c, valUpdates m c, weights_eq m c]

/-- The kernel's run, read over the launch contents. -/
theorem run : θ_run defs (onTc (τ := τ) (main (F := F))) ⟨m, fun _ => 0, ρ⟩ fun r => ∀ c : Dev nD,
      r.2.mem ((c : Thread nD τ).loc main_v28_0) = keys m c
      ∧ r.2.mem ((c : Thread nD τ).loc main_v28_1) = vals m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (keysOut_eq m c), (h c).2.1.trans (valsOut_eq m c), (h c).2.2⟩)
    (Cert.KernelIdeal.Blocks.run m ρ)

end Cert.KernelIdeal.KernelValue

end
-- ==== Proof.RefBlend.lean ====
/-
  The reference's two results are the slot update of `SlotBlend`.

  Read one operation at a time, the reference ends at `mem + (a · mom + b · (upd / d))` with `upd` and the weight sums
  `cnt` the results of its three scatter-additions, which are left closed here: only the operations after them are opened.
  The divisor is made from the vector `cnt` and then laid along the 128 columns, so the entry (p, q) reads it at p.
-/
import proofs.«118902_j61194694033988_1_alg».proof.Proof.Gen.ReferenceIdeal.Read
import proofs.«118902_j61194694033988_1_alg».proof.Proof.SlotBlend

noncomputable section

namespace Cert.ReferenceIdeal.RefValue

open Cert.ReferenceIdeal Cert.ReferenceIdeal.Gen Cert.ReferenceIdeal.Read Cert.SlotBlend
open Idealize.ShloMosaic Idealize.ShloMosaic.TcCoe

variable {F : FTy → Type} [FloatOps F]

/-- The column the divisor is laid into reads, at row p, the slot's divisor. -/
theorem divisor_col (x4 : (⟨S4096, .f32⟩ : BufTy).Contents (Elt F)) (x5 : (⟨S4096x8, .i32⟩ : BufTy).Contents (Elt F)) (j : S65536x1.Idx) :
    val_main_v30 (F := F) x4 x5 j = divisor (val_main_v26 (F := F) x4 x5) (idx_main_v30 j) := by
  rw [val_main_v30_apply, val_main_v29_apply, val_main_v28_apply, val_main_v27_apply, val_main_cst_5_apply,
    val_main_call1_v1_apply, val_main_call1_v0_apply, val_main_cst_6_apply]
  rfl

/-- The row of an entry, reached through the column and its repetition along the row. -/
theorem row_keys (i : S65536x128.Idx) : idx_main_v30 (idx_main_v31 i) = slotOf i :=
  funext fun a => Fin.ext (by match a with | ⟨0, _⟩ => rfl)

theorem row_vals (i : S65536x128.Idx) : idx_main_v30 (idx_main_v33 i) = slotOf i :=
  funext fun a => Fin.ext (by match a with | ⟨0, _⟩ => rfl)

/-- The first result (the updated keys) on the extended reals. -/
theorem keys_eq (x0 : (⟨S65536x128, .f32⟩ : BufTy).Contents (Elt Ideal)) (x2 : (⟨S4096x128, .f32⟩ : BufTy).Contents (Elt Ideal))
    (x4 : (⟨S4096, .f32⟩ : BufTy).Contents (Elt Ideal)) (x5 : (⟨S4096x8, .i32⟩ : BufTy).Contents (Elt Ideal))
    (x6 : (⟨S65536x128, .f32⟩ : BufTy).Contents (Elt Ideal)) :
    val_main_v45 (F := Ideal) x0 x2 x4 x5 x6
      = blend (F := Ideal) x0 x6 (val_main_v20 (F := Ideal) x2 x4 x5) (val_main_v26 (F := Ideal) x4 x5) := by
  funext i
  rw [val_main_v45_apply, val_main_v39_apply, val_main_v36_apply, val_main_v35_apply, val_main_cst_7_apply,
    val_main_v38_apply, val_main_v37_apply, val_main_cst_8_apply, val_main_v32_apply, val_main_v31_apply,
    divisor_col, row_keys]
  rfl

/-- The second result (the updated values) on the extended reals. -/
theorem vals_eq (x1 : (⟨S65536x128, .f32⟩ : BufTy).Contents (Elt Ideal)) (x3 : (⟨S4096x128, .f32⟩ : BufTy).Contents (Elt Ideal))
    (x4 : (⟨S4096, .f32⟩ : BufTy).Contents (Elt Ideal)) (x5 : (⟨S4096x8, .i32⟩ : BufTy).Contents (Elt Ideal))
    (x7 : (⟨S65536x128, .f32⟩ : BufTy).Contents (Elt Ideal)) :
    val_main_v46 (F := Ideal) x1 x3 x4 x5 x7
      = blend (F := Ideal) x1 x7 (val_main_v23 (F := Ideal) x3 x4 x5) (val_main_v26 (F := Ideal) x4 x5) := by
  funext i
  rw [val_main_v46_apply, val_main_v44_apply, val_main_v41_apply, val_main_v40_apply, val_main_cst_9_apply,
    val_main_v43_apply, val_main_v42_apply, val_main_cst_10_apply, val_main_v34_apply, val_main_v33_apply,
    divisor_col, row_vals]
  rfl

end Cert.ReferenceIdeal.RefValue

end
-- ==== Proof.lean ====
/-
  A memory of 65536 slots of 128 numbers is updated from a batch of 4096 writes, eight slots each. The host adds each
  write's weighted row into its eight slots (keys and values separately) and adds the weights themselves per slot; then,
  entry by entry,

      out = mem + ( a · mom + b · ( upd / d ) ),     d = the slot's weight sum where positive, else 1,

  with `a`, `b` the single-precision words nearest 9/10 and 1/10. The kernel's program does the host part exactly as the
  reference does and leaves the entrywise part to a kernel over 32 blocks of 2048 rows, the weight sums passed as a
  column; the reference does the entrywise part on whole arrays, the divisor laid along the rows. Both are the one
  function `Cert.SlotBlend.blend` of the launch contents, the scatter-added arrays never opened:

  * the kernel: `KernelBlocks` (the 32 blocks written back are the blocks of `blend` of the arrays the region finds,
    and they cover the arrays), `HostPrefix` (what the region finds), `KernelValue` (the two together);
  * the reference: `RefBlend`, one operation at a time over its generated run.

  No law of arithmetic is used beyond reading both sides at an index — on the extended reals the kernel's division
  and the host's are the same operation — so the precondition is not opened. The three frames are the generated ones;
  the kernel's idealization rewrote nothing.
-/
import proofs.«118902_j61194694033988_1_alg».proof.Defs
import proofs.«118902_j61194694033988_1_alg».proof.Proof.Gen.Kernel
import proofs.«118902_j61194694033988_1_alg».proof.Proof.Gen.Kernel.Frame
import proofs.«118902_j61194694033988_1_alg».proof.Proof.Gen.KernelIdeal
import proofs.«118902_j61194694033988_1_alg».proof.Proof.Gen.KernelIdeal.Frame
import proofs.«118902_j61194694033988_1_alg».proof.Proof.Gen.KernelIdeal.Value
import proofs.«118902_j61194694033988_1_alg».proof.Proof.Gen.ReferenceIdeal
import proofs.«118902_j61194694033988_1_alg».proof.Proof.Gen.ReferenceIdeal.Run
import proofs.«118902_j61194694033988_1_alg».proof.Proof.Gen.ReferenceIdeal.Read
import proofs.«118902_j61194694033988_1_alg».proof.Proof.Gen.Pre_finite_inputs
import proofs.«118902_j61194694033988_1_alg».proof.Proof.KernelValue
import proofs.«118902_j61194694033988_1_alg».proof.Proof.RefBlend
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals both programs end with the slot update of the launch contents: the kernel's by
    `KernelValue.run`, the reference's by its generated run read through `RefBlend`; the memories agree on the arguments. -/
theorem algebraic : Cert.algebraic_KernelIdeal_ReferenceIdeal := by
  intro m ρ m' ρ' _ hagree
  refine ⟨fun c => Cert.KernelIdeal.KernelValue.keys (F := Ideal) m c, fun c => Cert.KernelIdeal.KernelValue.vals (F := Ideal) m c,
    Cert.KernelIdeal.KernelValue.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v45_eq, Cert.ReferenceIdeal.RefValue.keys_eq, (hagree c).1, (hagree c).2.2.1,
      (hagree c).2.2.2.2.1, (hagree c).2.2.2.2.2.1, (hagree c).2.2.2.2.2.2.1]
  · rw [Cert.ReferenceIdeal.Read.val_main_v46_eq, Cert.ReferenceIdeal.RefValue.vals_eq, (hagree c).2.1, (hagree c).2.2.2.1,
      (hagree c).2.2.2.2.1, (hagree c).2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
